-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x64 : Shape := ⟨2, ![4096, 64]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : IVec S4096x64 32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg3
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S4096x64 : Shape := ⟨2, ![4096, 64]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256x64 : Shape := ⟨2, ![256, 64]⟩
abbrev S256x64x1 : Shape := ⟨3, ![256, 64, 1]⟩
abbrev S256x64x64 : Shape := ⟨3, ![256, 64, 64]⟩
abbrev S1x256 : Shape := ⟨2, ![1, 256]⟩
abbrev S256x256 : Shape := ⟨2, ![256, 256]⟩
abbrev S256 : Shape := ⟨1, ![256]⟩
abbrev S256x1 : Shape := ⟨2, ![256, 1]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .i32⟩
  | .hbm, ⟨3, _⟩ => ⟨S4096, .f32⟩
  | .hbm, ⟨4, _⟩ => ⟨S8192x4096, .f32⟩
  | .hbm, ⟨5, _⟩ => ⟨S1x4096, .f32⟩
  | .hbm, ⟨6, _⟩ => ⟨S4096x4096, .bf16⟩
  | .hbm, ⟨7, _⟩ => ⟨S8192x4096, .f32⟩
  | .hbm, ⟨8, _⟩ => ⟨S4x2048x4096, .f32⟩
  | .local _ .vmem, ⟨0, _⟩ => ⟨S256x4096, .i32⟩
  | .local _ .vmem, ⟨1, _⟩ => ⟨S256x4096, .i32⟩
  | .local _ .vmem, ⟨2, _⟩ => ⟨S256x64, .i32⟩
  | .local _ .vmem, ⟨3, _⟩ => ⟨S256x64, .i32⟩
  | .local _ .vmem, ⟨4, _⟩ => ⟨S256x4096, .bf16⟩
  | .local _ .vmem, ⟨5, _⟩ => ⟨S256x4096, .bf16⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | .local _ .vmem, ⟨10, _⟩ => ⟨S1x256, .f32⟩
  | .local _ .vmem, ⟨11, _⟩ => ⟨S1x256, .f32⟩
  | .local _ .vmem, ⟨12, _⟩ => ⟨S256x256, .f32⟩
  | .local _ .vmem, ⟨13, _⟩ => ⟨S256x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x4096_S8192x4096 : S4x2048x4096.ShapeCasts S8192x4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S256x64_S256x64_0_0 : ∀ a, (![0, 0] : Fin 2 → Nat) a + S256x64.size a ≤ S256x64.size a
  h_S256x64 : 0 < S256x64.numel
  shapeCasts_S256x64_S256x64x1 : S256x64.ShapeCasts S256x64x1
  shapeCasts_S256x64x1_S256x64x1 : S256x64x1.ShapeCasts S256x64x1
  broadcasts_S256x64x1_S256x64x64 : S256x64x1.Broadcasts S256x64x64
  shapeCasts_S256x64x64_S256x4096 : S256x64x64.ShapeCasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S8192x4096_S4x2048x4096 : S8192x4096.ShapeCasts S4x2048x4096
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .i32 = 32 ∨ (Rect.block (s := S4096x64) S256x64.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .bf16 = 32 ∨ (Rect.block (s := S4096x4096) S256x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .bf16 = 32 ∨ (Rect.block (s := S4096x4096) S256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x4096.size a
  hwx1_2 : ∀ i : grid1.Coords, EltTy.bits .f32 = 32 ∨ (Rect.block (s := S1x4096) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S8192x4096.size a
  hwx1_3 : ∀ i : grid1.Coords, EltTy.bits .f32 = 32 ∨ (Rect.block (s := S8192x4096) S256x256.size (cc1_transform_3 i) (hinb1_3 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x64 : Shape := ⟨2, ![4096, 64]⟩
abbrev S4096 : Shape := ⟨1, ![4096]⟩
abbrev S_ : Shape := ⟨0, ![]⟩
abbrev S4096x64x64 : Shape := ⟨3, ![4096, 64, 64]⟩
abbrev S4096x64x1 : Shape := ⟨3, ![4096, 64, 1]⟩
abbrev S8192x4096 : Shape := ⟨2, ![8192, 4096]⟩
abbrev S8192 : Shape := ⟨1, ![8192]⟩
abbrev S8192x1 : Shape := ⟨2, ![8192, 1]⟩
abbrev S1x1x4096 : Shape := ⟨3, ![1, 1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x64, .i32⟩
  | .hbm, ⟨3, _⟩ => ⟨S4096, .f32⟩
  | .hbm, ⟨4, _⟩ => ⟨S4096x64, .f32⟩
  | .hbm, ⟨5, _⟩ => ⟨S_, .f32⟩
  | .hbm, ⟨6, _⟩ => ⟨S4096x64, .f32⟩
  | .hbm, ⟨7, _⟩ => ⟨S4096x64, .f32⟩
  | .hbm, ⟨8, _⟩ => ⟨S4096x4096, .f32⟩
  | .hbm, ⟨9, _⟩ => ⟨S4096x64x64, .f32⟩
  | .hbm, ⟨10, _⟩ => ⟨S4096x64x1, .f32⟩
  | .hbm, ⟨11, _⟩ => ⟨S4096x64x64, .f32⟩
  | .hbm, ⟨12, _⟩ => ⟨S4096x64x64, .f32⟩
  | .hbm, ⟨13, _⟩ => ⟨S4096x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S4x2048x4096, .f32⟩
  | .hbm, ⟨40, _⟩ => ⟨S4x2048x4096, .f32⟩
  | .hbm, ⟨41, _⟩ => ⟨S1x1x4096, .f32⟩
  | .hbm, ⟨42, _⟩ => ⟨S4x2048x4096, .f32⟩
  | .hbm, ⟨43, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_c_3 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]

class Facts₀ : Prop where
  bcast_S_S4096x64 : S_.BroadcastsInDim S4096x64 (![] : Fin 0 → Fin S4096x64.rank)
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  shapeCasts_S4x2048x4096_S8192x4096 : S4x2048x4096.ShapeCasts S8192x4096
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x4096_0_1 : S8192x1.BroadcastsInDim S8192x4096 (![0, 1] : Fin 2 → Fin S8192x4096.rank)
  bcast_S_S8192x4096 : S_.BroadcastsInDim S8192x4096 (![] : Fin 0 → Fin S8192x4096.rank)
  shapeCasts_S8192x4096_S4x2048x4096 : S8192x4096.ShapeCasts S4x2048x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The function both programs compute: a linear layer whose weights are block-scaled integers and whose
  activations are fake-quantized per token.

  * A weight entry: the integer weight times its block's scale, the scale an integer read in 2⁻²⁴ fixed point
    (`deq`). Column `k` of a weight row belongs to block `k / 64`.
  * A token (one row `x` of 4096 activations): its step is max(ε, amax)/127, where amax is the largest
    magnitude of the row and ε the float nearest 1e-8 (`step`); each activation is divided by the step,
    rounded to the nearest integer (ties to even), clamped to [−127, 127] and multiplied by the step again (`fq`).
  * An output entry: the dot product over the 4096 columns of the quantized token with a dequantized weight row,
    plus that row's bias (`entry`).
  Every operation is the exact one on the extended reals; the literals are kept as the words the programs print.
-/
import Idealize.ShloMosaic.PureOps.Ideal
import Idealize.ShloMosaic.Lib.ValueIdx

noncomputable section

namespace Cert.QuantLinear

open Idealize.ShloMosaic Idealize.ShloMosaic.ValueIdx

/-- A dequantized weight: the integer weight `w` times (the integer scale `s` times 2⁻²⁴). -/
def deq (w s : BitVec 32) : EReal :=
  FloatOps.mulf (F := Ideal) (φ := .f32) (FloatOps.sitofp .f32 w)
    (FloatOps.mulf (F := Ideal) (φ := .f32) (FloatOps.sitofp .f32 s) (Ideal.ofBits .f32 0x33800000#32))

/-- The largest magnitude of a token's activations (a fold of max from −∞). -/
def amax (x : Fin 4096 → EReal) : EReal :=
  (Finset.univ : Finset (Fin 4096)).fold max (Ideal.ofBits .f32 0xFF800000#32)
    (fun k => FloatOps.absf (F := Ideal) (φ := .f32) (x k))

/-- The token's quantization step: its largest magnitude, floored at the float nearest 1e-8, over 127. -/
def step (x : Fin 4096 → EReal) : EReal :=
  Ideal.div (max (Ideal.ofBits .f32 0x322BCC77#32) (amax x)) (Ideal.ofBits .f32 0x42FE0000#32)

/-- One activation after fake quantization: x/step rounded (ties to even), clamped to [−127, 127], times step. -/
def fq (x : Fin 4096 → EReal) (k : Fin 4096) : EReal :=
  min (Ideal.ofBits .f32 0x42FE0000#32)
      (max (Ideal.ofBits .f32 0xC2FE0000#32) (Ideal.liftRound Ideal.roundHalfEven (Ideal.div (x k) (step x))))
    * step x

/-- One output entry: the quantized token against a weight row, plus the bias. -/
def entry (x w : Fin 4096 → EReal) (b : EReal) : EReal :=
  (∑ k : Fin 4096, fq x k * w k) + b

/-- The block a column belongs to. -/
def blockOf (k : Fin 4096) : Fin 64 := ⟨k.val / 64, by have := k.isLt; omega⟩

/-- The dequantized weight matrix [4096, 4096] from the integer weights and the [4096, 64] block scales. -/
def weights (W : (⟨2, ![4096, 4096]⟩ : Shape).Idx → BitVec 32) (S : (⟨2, ![4096, 64]⟩ : Shape).Idx → BitVec 32) :
    (⟨2, ![4096, 4096]⟩ : Shape).Idx → EReal :=
  fun j => deq (W j) (S (ix2 (n0 := 4096) (n1 := 64) ⟨(j 0).val, (j 0).isLt⟩ (blockOf ⟨(j 1).val, (j 1).isLt⟩)))

theorem weights_apply (W : (⟨2, ![4096, 4096]⟩ : Shape).Idx → BitVec 32) (S : (⟨2, ![4096, 64]⟩ : Shape).Idx → BitVec 32)
    (o k : Fin 4096) : weights W S (ix2 o k) = deq (W (ix2 o k)) (S (ix2 o (blockOf k))) := rfl

/-- The layer on a [8192, 4096] array of tokens, a [4096, 4096] weight matrix and a [1, 4096] bias row. -/
def layer (X : (⟨2, ![8192, 4096]⟩ : Shape).Idx → EReal) (Wd : (⟨2, ![4096, 4096]⟩ : Shape).Idx → EReal)
    (B : (⟨2, ![1, 4096]⟩ : Shape).Idx → EReal) : (⟨2, ![8192, 4096]⟩ : Shape).Idx → EReal :=
  fun j => entry (fun k => X (ix2 (n0 := 8192) (n1 := 4096) ⟨(j 0).val, (j 0).isLt⟩ k))
    (fun k => Wd (ix2 (n0 := 4096) (n1 := 4096) ⟨(j 1).val, (j 1).isLt⟩ k))
    (B (ix2 (n0 := 1) (n1 := 4096) 0 ⟨(j 1).val, (j 1).isLt⟩))

theorem layer_apply (X : (⟨2, ![8192, 4096]⟩ : Shape).Idx → EReal) (Wd : (⟨2, ![4096, 4096]⟩ : Shape).Idx → EReal)
    (B : (⟨2, ![1, 4096]⟩ : Shape).Idx → EReal) (r : Fin 8192) (n : Fin 4096) :
    layer X Wd B (ix2 r n) = entry (fun k => X (ix2 r k)) (fun k => Wd (ix2 n k)) (B (ix2 0 n)) := rfl

/-- The whole function: on a [4, 2048, 4096] batch of tokens, the integer weights, the block scales and the bias. -/
def out (x : (⟨3, ![4, 2048, 4096]⟩ : Shape).Idx → EReal) (W : (⟨2, ![4096, 4096]⟩ : Shape).Idx → BitVec 32)
    (S : (⟨2, ![4096, 64]⟩ : Shape).Idx → BitVec 32) (b : (⟨1, ![4096]⟩ : Shape).Idx → EReal) :
    (⟨3, ![4, 2048, 4096]⟩ : Shape).Idx → EReal :=
  fun j => entry (fun k => x (ix3 (n0 := 4) (n1 := 2048) (n2 := 4096) ⟨(j 0).val, (j 0).isLt⟩ ⟨(j 1).val, (j 1).isLt⟩ k))
    (fun k => deq (W (ix2 (n0 := 4096) (n1 := 4096) ⟨(j 2).val, (j 2).isLt⟩ k))
      (S (ix2 (n0 := 4096) (n1 := 64) ⟨(j 2).val, (j 2).isLt⟩ (blockOf k))))
    (b (ix1 (n := 4096) ⟨(j 2).val, (j 2).isLt⟩))

theorem out_apply (x : (⟨3, ![4, 2048, 4096]⟩ : Shape).Idx → EReal) (W : (⟨2, ![4096, 4096]⟩ : Shape).Idx → BitVec 32)
    (S : (⟨2, ![4096, 64]⟩ : Shape).Idx → BitVec 32) (b : (⟨1, ![4096]⟩ : Shape).Idx → EReal)
    (p : Fin 4) (s : Fin 2048) (n : Fin 4096) :
    out x W S b (ix3 p s n) = entry (fun k => x (ix3 p s k)) (fun k => deq (W (ix2 n k)) (S (ix2 n (blockOf k)))) (b (ix1 n)) := rfl

end Cert.QuantLinear

end
-- ==== Proof.Region0.lean ====
/-
  The dequantizing region's output array. Its grid has 16 points; point t reads rows 256·t … 256·t+255 of the
  integer weights (all 4096 columns) and of the block scales (all 64 blocks) and writes the same rows of the
  output. Entry (p, k) of a tile is the weight at (p, k) times the scale of block k / 64 in row p — the scale
  column is stretched 64-fold by a reshape to [256, 64, 1], a broadcast to [256, 64, 64] and a reshape to
  [256, 4096], so column k reads block k / 64. The sixteen tiles cover the array, which therefore ends at the
  dequantized weight matrix `weights` of the arrays the region finds.
-/
import proofs.«105468_j41781441856135_2_alg».proof.Proof.Gen.KernelIdeal.Frame
import proofs.«105468_j41781441856135_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Dequant

open Cert.KernelIdeal Cert.KernelIdeal.Gen Cert.QuantLinear
open Idealize.ShloMosaic Idealize.ShloMosaic.TcCoe Idealize.ShloMosaic.ValueIdx Idealize.SL.Sem
open Idealize.ShloMosaic.Pipeline (Dat)

theorem zero_off : (![0, 0] : Fin 2 → Nat) = fun _ => 0 := funext fun a => by fin_cases a <;> rfl

/-- Entry (p, k) of a tile: the integer weight there times (the integer scale of block k / 64 in row p times 2⁻²⁴). -/
theorem tile_apply (x0 : Vec Ideal S256x4096 .i32) (x1 : Vec Ideal S256x64 .i32) (p : Fin 256) (k : Fin 4096) :
    k0_pay1 (F := Ideal) x0 x1 (ix2 p k) = deq (x0 (ix2 p k)) (x1 (ix2 p (blockOf k))) := by
  have hk : k.val < 4096 := k.isLt
  have hp : p.val < 256 := p.isLt
  have hb : k.val / 64 < 64 := by omega
  unfold k0_pay1 deq
  refine congrArg (fun z : EReal => FloatOps.mulf (F := Ideal) (φ := .f32) (FloatOps.sitofp .f32 (x0 (ix2 p k))) z) ?_
  -- the stretched scale at (p, k) is the [256, 64, 64] array at (p, k / 64, k % 64)
  refine (shapeCast_apply _ _ (ix2 p k) (ix3 p (blockOf k) (⟨k.val % 64, Nat.mod_lt _ (by decide)⟩ : Fin 64))
    (by rw [Shape.rowMajor_val_three, Shape.rowMajor_val_two]
        show (p.val * 64 + k.val / 64) * 64 + k.val % 64 = p.val * 4096 + k.val
        omega)).trans ?_
  -- which is the [256, 64, 1] array at (p, k / 64, 0)
  refine (broadcastTo_apply _ _ _ (ix3 p (blockOf k) (0 : Fin 1)) (fun a => match a with
    | ⟨0, _⟩ => by show p.val = if (256 : Nat) = 1 then 0 else p.val; rw [if_neg (by decide)]
    | ⟨1, _⟩ => by show k.val / 64 = if (64 : Nat) = 1 then 0 else k.val / 64; rw [if_neg (by decide)]
    | ⟨2, _⟩ => by show 0 = if (1 : Nat) = 1 then 0 else k.val % 64; rw [if_pos rfl])).trans ?_
  rw [shapeCast_self]
  -- which is the scale column at (p, k / 64)
  refine (shapeCast_apply _ _ _ (ix2 p (blockOf k))
    (by rw [Shape.rowMajor_val_three, Shape.rowMajor_val_two]
        show p.val * 64 + k.val / 64 = (p.val * 64 + k.val / 64) * 1 + 0
        omega)).trans ?_
  rfl

variable (V : (c : Dev nD) → (b : Ref sig .tc) → Buf (Elt Ideal) ((c : Thread nD τ).loc b))

/-- The three windows' row blocks move together and none moves along the columns. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 15 :=
  (by decide +kernel : ∀ t : Fin grid0.N, _)

/-- Every row block is some point's. -/
theorem idx_onto : ∀ q : Fin 16, ∃ t : Fin cfg0.N, win0_2.index t = ![q.val, 0] :=
  (by decide +kernel : ∀ q : Fin 16, ∃ t : Fin grid0.N, win0_2.index t = ![q.val, 0])

/-- What point `t` writes back is block `t` of the dequantized weight matrix of the arrays the region finds. -/
theorem flushed_eq (c : Dev nD) (t : Fin cfg0.N) :
    (dat0 (F := Ideal) V c).flushed 2 t
      = ((cfg0.win 2).blk t).view.read (Elt Ideal) (weights (V c main_arg1) (V c main_arg2)) := by
  show (cfg0.win 2).cut (grid0.coords t) ((dat0 V c).after 2 t) = _
  rw [after0_2]
  unfold out0_2
  rw [View.canon_unit_zero zero_off]
  simp only [View.ld_unit_zero (S := S256x4096) zero_off, View.ld_unit_zero (S := S256x64) zero_off]
  obtain ⟨e0, e1, e2, e3, e4, e5⟩ := idx_facts t
  funext j
  obtain ⟨p, k, rfl⟩ : ∃ (p : Fin 256) (k : Fin 4096), j = ix2 p k := ⟨j 0, j 1, eq_ix2 j⟩
  have hp : p.val < 256 := p.isLt
  have hk : k.val < 4096 := k.isLt
  refine (tile_apply (iblk0 V c 0 t) (iblk0 V c 1 t) p k).trans ?_
  have r0 : iblk0 V c 0 t (ix2 p k)
      = V c main_arg1 (ix2 (⟨win0_2.index t (0 : Fin 2) * 256 + p.val, by omega⟩ : Fin 4096) k) := by
    show V c main_arg1 (((cfg0.win 0).blk t).view.emb (ix2 p k)) = V c main_arg1 _
    refine congrArg _ (funext fun a => Fin.ext ?_)
    match a with
    | ⟨0, _⟩ => show win0_0.index t (0 : Fin 2) * 256 + 1 * p.val = win0_2.index t (0 : Fin 2) * 256 + p.val; omega
    | ⟨1, _⟩ => show win0_0.index t (1 : Fin 2) * 4096 + 1 * k.val = k.val; omega
  have r1 : iblk0 V c 1 t (ix2 p (blockOf k))
      = V c main_arg2 (ix2 (⟨win0_2.index t (0 : Fin 2) * 256 + p.val, by omega⟩ : Fin 4096) (blockOf k)) := by
    show V c main_arg2 (((cfg0.win 1).blk t).view.emb (ix2 p (blockOf k))) = V c main_arg2 _
    refine congrArg _ (funext fun a => Fin.ext ?_)
    match a with
    | ⟨0, _⟩ => show win0_1.index t (0 : Fin 2) * 256 + 1 * p.val = win0_2.index t (0 : Fin 2) * 256 + p.val; omega
    | ⟨1, _⟩ => show win0_1.index t (1 : Fin 2) * 64 + 1 * (k.val / 64) = k.val / 64; omega
  have r2 : ((cfg0.win 2).blk t).view.emb (ix2 p k)
      = ix2 (⟨win0_2.index t (0 : Fin 2) * 256 + p.val, by omega⟩ : Fin 4096) k := by
    refine funext fun a => Fin.ext ?_
    match a with
    | ⟨0, _⟩ => show win0_2.index t (0 : Fin 2) * 256 + 1 * p.val = win0_2.index t (0 : Fin 2) * 256 + p.val; omega
    | ⟨1, _⟩ => show win0_2.index t (1 : Fin 2) * 4096 + 1 * k.val = k.val; omega
  rw [r0, r1]
  show _ = weights (V c main_arg1) (V c main_arg2) (((cfg0.win 2).blk t).view.emb (ix2 p k))
  rw [r2, weights_apply]

/-- An index of the array is in point `t`'s block iff each coordinate is in the block's range on its axis. -/
theorem mem_blk (t : Fin cfg0.N) (i : S4096x4096.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v2).slice (win0_2.rect t)).set ↔ _
  rw [View.set_slice_whole, Rect.mem_set_unit]
  exact Iff.rfl

/-- The sixteen row blocks cover the array: row r lies in block r / 256. -/
theorem cover (i : S4096x4096.Idx) :
    ∃ t : Fin cfg0.N, (cfg0.win 2).flush t = true ∧ i ∈ ((cfg0.win 2).blk t).view.set := by
  have hi0 : (i 0).val < 4096 := (i 0).isLt
  have hi1 : (i 1).val < 4096 := (i 1).isLt
  obtain ⟨t, ht⟩ := idx_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- The region's output array after its run: the dequantized weight matrix of the arrays it finds. -/
theorem final (c : Dev nD) :
    (dat0 (F := Ideal) V c).arrAt 2 cfg0.N = weights (V c main_arg1) (V c main_arg2) :=
  (dat0 V c).arrAt_eq_of_cover 2 (weights (V c main_arg1) (V c main_arg2)) (fun t _ => flushed_eq V c t) cover

end Cert.KernelIdeal.Dequant

end
-- ==== Proof.Region1Tile.lean ====
/-
  The matmul region's output array. Its grid is 32 × 16; point (i, j) reads rows 256·i … of the token array
  (all 4096 columns: a token's largest magnitude needs its whole row), rows 256·j … of the weight matrix (all
  4096 columns) and columns 256·j … of the bias row, and writes the [256, 256] tile at (256·i, 256·j).
  Entry (p, q) of a tile is the dot product over the 4096 columns of the fake-quantized token p with weight row
  q, plus the bias at q: a token's quantization depends on its own row only, so the tile entry is `entry` of
  that row, that weight row and that bias. The 512 tiles cover the array, which ends at `layer` of the arrays
  the region finds.
-/
import proofs.«105468_j41781441856135_2_alg».proof.Proof.Gen.KernelIdeal.Frame
import proofs.«105468_j41781441856135_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.QuantMatmul

open Cert.KernelIdeal Cert.KernelIdeal.Gen Cert.QuantLinear
open Idealize.ShloMosaic Idealize.ShloMosaic.TcCoe Idealize.ShloMosaic.ValueIdx Idealize.SL.Sem
open Idealize.ShloMosaic.Pipeline (Dat)

theorem zero_off : (![0, 0] : Fin 2 → Nat) = fun _ => 0 := funext fun a => by fin_cases a <;> rfl

/-! ## The body's stages, as functions of the loaded token tile -/

/-- The largest magnitude of each of the tile's 256 tokens. -/
def amaxCol (x0 : Vec Ideal S256x4096 .f32) : FVec Ideal S256 .f32 :=
  multiReduction .maximumf [1] S256 (absf (shapeCast S256x4096 x0 shapeCasts_S256x4096_S256x4096)) 0xFF800000#32 reduces_S256x4096_S256 (.inl rfl) rfl

/-- The column of quantization steps of a tile of 256 tokens: per token, max(ε, largest magnitude) / 127. -/
def stepCol (x0 : Vec Ideal S256x4096 .f32) : FVec Ideal S256x1 .f32 :=
  divf (maximumf (broadcast S256x1 (Scalar.ofBits .f32 0x322BCC77#32)) (shapeCast S256x1 (amaxCol x0) shapeCasts_S256_S256x1))
    (broadcast S256x1 (Scalar.ofBits .f32 0x42FE0000#32))

/-- The fake-quantized tile. -/
def quant (x0 : Vec Ideal S256x4096 .f32) : FVec Ideal S256x4096 .f32 :=
  mulf (minimumf (broadcast S256x4096 (Scalar.ofBits .f32 0x42FE0000#32))
      (maximumf (broadcast S256x4096 (Scalar.ofBits .f32 0xC2FE0000#32))
        (roundeven (divf (shapeCast S256x4096 x0 shapeCasts_S256x4096_S256x4096) (broadcastTo S256x4096 (stepCol x0) broadcasts_S256x1_S256x4096)))))
    (broadcastTo S256x4096 (stepCol x0) broadcasts_S256x1_S256x4096)

/-- The body's stored value is the product of the quantized tile with the weight tile, plus the bias row. -/
theorem body_eq (x0 : Vec Ideal S256x4096 .f32) (x19 : Vec Ideal S256x4096 .bf16) (x22 : Vec Ideal S1x256 .f32) :
    k1_pay1 (F := Ideal) x0 x19 x22
      = addf (matmul dot_S256x4096_S256x4096_S256x256_1_1_0_0_n_n none (truncf .bf16 (quant x0) bitsLt_bf16_f32)
            (shapeCast S256x4096 x19 shapeCasts_S256x4096_S256x4096 : FVec Ideal S256x4096 .bf16) (constant S256x256 .f32 0x00000000#32))
          (broadcastTo S256x256 (shapeCast S1x256 x22 shapeCasts_S1x256_S1x256) broadcasts_S1x256_S256x256) := rfl

/-- A token's largest magnitude: the lane maximum of the tile's magnitudes at row p. -/
theorem rowmax_apply (x : Vec Ideal S256x4096 .f32) (p : Fin 256) :
    multiReduction (F := Ideal) .maximumf [1] S256 (absf x) 0xFF800000#32 reduces_S256x4096_S256 (.inl rfl) rfl (ix1 p)
      = amax (fun k => x (ix2 p k)) := by
  refine (Ideal.multiReduction_maximumf_single (absf x) _ reduces_S256x4096_S256 (.inl rfl) rfl (ix1 p)).trans ?_
  unfold amax
  refine congrArg (Finset.fold max (Ideal.ofBits .f32 0xFF800000#32) · (Finset.univ : Finset (Fin 4096))) (funext fun k => ?_)
  show FloatOps.absf (F := Ideal) (φ := .f32) (x (reduces_S256x4096_S256.lift (ix1 p) k)) = FloatOps.absf (F := Ideal) (φ := .f32) (x (ix2 p k))
  refine congrArg _ (congrArg x (funext fun a => Fin.ext ?_))
  match a with
  | ⟨0, _⟩ => rfl
  | ⟨1, _⟩ => rfl

/-- The largest magnitude of token p of the tile. -/
theorem amaxCol_apply (x0 : Vec Ideal S256x4096 .f32) (p : Fin 256) :
    amaxCol x0 (ix1 p) = amax (fun k => x0 (ix2 p k)) := by
  unfold amaxCol
  rw [shapeCast_self]
  exact rowmax_apply x0 p

/-- The step formula at row p, column 0 of a [256, 1] column built from ANY vector `A` of 256 magnitudes. -/
theorem step_at (A : FVec Ideal S256 .f32) (p : Fin 256) :
    divf (maximumf (broadcast S256x1 (Scalar.ofBits (F := Ideal) .f32 0x322BCC77#32)) (shapeCast S256x1 A shapeCasts_S256_S256x1))
        (broadcast S256x1 (Scalar.ofBits (F := Ideal) .f32 0x42FE0000#32)) (ix2 p (0 : Fin 1))
      = Ideal.div (max (Ideal.ofBits .f32 0x322BCC77#32) (A (ix1 p))) (Ideal.ofBits .f32 0x42FE0000#32) := by
  have h1 : shapeCast S256x1 A shapeCasts_S256_S256x1 (ix2 p (0 : Fin 1)) = A (ix1 p) :=
    shapeCast_apply _ _ (ix2 p (0 : Fin 1)) (ix1 p)
      (by rw [Shape.rowMajor_val_one, Shape.rowMajor_val_two]
          show p.val = p.val * 1 + 0
          omega)
  show Ideal.div (max (Ideal.ofBits .f32 0x322BCC77#32) (shapeCast S256x1 A shapeCasts_S256_S256x1 (ix2 p (0 : Fin 1))))
      (Ideal.ofBits .f32 0x42FE0000#32) = _
  rw [h1]

/-- The step of token p of the tile. -/
theorem stepCol_apply (x0 : Vec Ideal S256x4096 .f32) (p : Fin 256) :
    stepCol x0 (ix2 p (0 : Fin 1)) = step (fun k => x0 (ix2 p k)) := by
  unfold stepCol step
  refine (step_at (amaxCol x0) p).trans ?_
  rw [amaxCol_apply]

/-- The fake-quantization formula at (p, k) of ANY tile `X` against ANY step column `Sc`. -/
theorem quant_at (X : FVec Ideal S256x4096 .f32) (Sc : FVec Ideal S256x1 .f32) (p : Fin 256) (k : Fin 4096) :
    mulf (minimumf (broadcast S256x4096 (Scalar.ofBits (F := Ideal) .f32 0x42FE0000#32))
        (maximumf (broadcast S256x4096 (Scalar.ofBits (F := Ideal) .f32 0xC2FE0000#32))
          (roundeven (divf X (broadcastTo S256x4096 Sc broadcasts_S256x1_S256x4096)))))
      (broadcastTo S256x4096 Sc broadcasts_S256x1_S256x4096) (ix2 p k)
      = min (Ideal.ofBits .f32 0x42FE0000#32)
          (max (Ideal.ofBits .f32 0xC2FE0000#32) (Ideal.liftRound Ideal.roundHalfEven (Ideal.div (X (ix2 p k)) (Sc (ix2 p (0 : Fin 1))))))
        * Sc (ix2 p (0 : Fin 1)) := by
  have hb : broadcastTo S256x4096 Sc broadcasts_S256x1_S256x4096 (ix2 p k) = Sc (ix2 p (0 : Fin 1)) :=
    broadcastTo_apply _ _ (ix2 p k) (ix2 p (0 : Fin 1)) (fun a => match a with
      | ⟨0, _⟩ => by show p.val = if (256 : Nat) = 1 then 0 else p.val; rw [if_neg (by decide)]
      | ⟨1, _⟩ => by show 0 = if (1 : Nat) = 1 then 0 else k.val; rw [if_pos rfl])
  show min (Ideal.ofBits .f32 0x42FE0000#32) (max (Ideal.ofBits .f32 0xC2FE0000#32)
        (Ideal.liftRound Ideal.roundHalfEven (Ideal.div (X (ix2 p k)) (broadcastTo S256x4096 Sc broadcasts_S256x1_S256x4096 (ix2 p k)))))
      * broadcastTo S256x4096 Sc broadcasts_S256x1_S256x4096 (ix2 p k) = _
  rw [hb]

/-- Entry (p, k) of the fake-quantized tile is the fake-quantized activation k of token p. -/
theorem quant_apply (x0 : Vec Ideal S256x4096 .f32) (p : Fin 256) (k : Fin 4096) :
    quant x0 (ix2 p k) = fq (fun k => x0 (ix2 p k)) k := by
  unfold quant fq
  rw [shapeCast_self]
  refine (quant_at x0 (stepCol x0) p k).trans ?_
  rw [stepCol_apply]

/-! ## The contraction's operand indices -/

theorem lhs_0 (i : S256x256.Idx) (q : dot_S256x4096_S256x4096_S256x256_1_1_0_0_n_n.contr.Idx) : (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide),
    dif_pos (show (0 : Fin S256x4096.rank) ∈ dot_S256x4096_S256x4096_S256x256_1_1_0_0_n_n.lhsNonContracting by decide)]
  rfl
theorem lhs_1 (i : S256x256.Idx) (q : dot_S256x4096_S256x4096_S256x256_1_1_0_0_n_n.contr.Idx) : (dot_S256x4096_S256x4096_S256x256_1_1_0_0_n_n.lhsIdx i q 1).val = (q ⟨0, by decide⟩).val :=
  dot_S256x4096_S256x4096_S256x256_1_1_0_0_n_n.lhsIdx_val_of_single rfl i q
theorem rhs_0 (i : S256x256.Idx) (q : dot_S256x4096_S256x4096_S256x256_1_1_0_0_n_n.contr.Idx) : (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide),
    dif_pos (show (0 : Fin S256x4096.rank) ∈ dot_S256x4096_S256x4096_S256x256_1_1_0_0_n_n.rhsNonContracting by decide)]
  rfl
theorem rhs_1 (i : S256x256.Idx) (q : dot_S256x4096_S256x4096_S256x256_1_1_0_0_n_n.contr.Idx) : (dot_S256x4096_S256x4096_S256x256_1_1_0_0_n_n.rhsIdx i q 1).val = (q ⟨0, by decide⟩).val :=
  dot_S256x4096_S256x4096_S256x256_1_1_0_0_n_n.rhsIdx_val_of_single rfl i q

/-- Entry (p, q) of a tile: token p of the token tile, fake-quantized, against row q of the weight tile, plus the
    bias at q. -/
theorem tile_apply (x0 : Vec Ideal S256x4096 .f32) (x19 : Vec Ideal S256x4096 .bf16) (x22 : Vec Ideal S1x256 .f32)
    (p q : Fin 256) :
    k1_pay1 (F := Ideal) x0 x19 x22 (ix2 p q)
      = entry (fun k => x0 (ix2 p k)) (fun k => x19 (ix2 q k)) (x22 (ix2 (0 : Fin 1) q)) := by
  rw [body_eq]
  unfold entry
  refine (addf_apply _ _ _).trans ?_
  refine congrArg₂ (fun a b : EReal => a + b) ?_ ?_
  · refine (Ideal.matmul_constant_zero_apply dot_S256x4096_S256x4096_S256x256_1_1_0_0_n_n none _ _ (ix2 p q)).trans ?_
    rw [← Equiv.sum_comp (ValueIdx.contrEquiv1 dot_S256x4096_S256x4096_S256x256_1_1_0_0_n_n 4096 rfl rfl).symm]
    refine Finset.sum_congr rfl fun k _ => ?_
    have hk := ValueIdx.contrEquiv1_symm_val dot_S256x4096_S256x4096_S256x256_1_1_0_0_n_n 4096 rfl rfl k
    have el : dot_S256x4096_S256x4096_S256x256_1_1_0_0_n_n.lhsIdx (ix2 p q) ((ValueIdx.contrEquiv1 dot_S256x4096_S256x4096_S256x256_1_1_0_0_n_n 4096 rfl rfl).symm k) = ix2 p k := funext fun a => Fin.ext (by
      match a with
      | ⟨0, _⟩ => exact lhs_0 _ _
      | ⟨1, _⟩ => exact (lhs_1 _ _).trans hk)
    have er : dot_S256x4096_S256x4096_S256x256_1_1_0_0_n_n.rhsIdx (ix2 p q) ((ValueIdx.contrEquiv1 dot_S256x4096_S256x4096_S256x256_1_1_0_0_n_n 4096 rfl rfl).symm k) = ix2 q k := funext fun a => Fin.ext (by
      match a with
      | ⟨0, _⟩ => exact rhs_0 _ _
      | ⟨1, _⟩ => exact (rhs_1 _ _).trans hk)
    rw [el, er, shapeCast_self]
    exact congrArg (fun z : EReal => z * x19 (ix2 q k)) (quant_apply x0 p k)
  · rw [shapeCast_self]
    exact broadcastTo_apply _ _ (ix2 p q) (ix2 (0 : Fin 1) q) (fun a => match a with
      | ⟨0, _⟩ => by show 0 = if (1 : Nat) = 1 then 0 else p.val; rw [if_pos rfl]
      | ⟨1, _⟩ => by show q.val = if (256 : Nat) = 1 then 0 else q.val; rw [if_neg (by decide)])

end Cert.KernelIdeal.QuantMatmul

end
-- ==== Proof.Region1.lean ====
/-
  The matmul region's output array (continued): from tiles to the array. Point t of the 32 × 16 grid is
  (t / 16, t % 16); its token block is row block t / 16, its weight block and its bias block are block t % 16, and it
  writes tile (t / 16, t % 16). Every tile is `layer` of the arrays the region finds, read through the tile's
  rectangle, and the 512 tiles cover the [8192, 4096] array.
-/
import proofs.«105468_j41781441856135_2_alg».proof.Proof.Region1Tile

set_option maxRecDepth 16384

noncomputable section

namespace Cert.KernelIdeal.QuantMatmul

open Cert.KernelIdeal Cert.KernelIdeal.Gen Cert.QuantLinear
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The four windows' blocks at point t, from the printed index maps. -/
theorem idx_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 2) = 0
    ∧ win1_2.index t (1 : Fin 2) = win1_3.index t (1 : Fin 2)
    ∧ win1_3.index t (0 : Fin 2) = t.val / 16
    ∧ win1_3.index t (1 : Fin 2) = t.val % 16 :=
  (by decide +kernel : ∀ t : Fin grid1.N, _)

/-- What point `t` writes back is tile `t` of `layer` of the arrays the region finds. -/
theorem flushed_eq (c : Dev nD) (t : Fin cfg1.N) :
    (dat1 (F := Ideal) V c).flushed 3 t
      = ((cfg1.win 3).blk t).view.read (Elt Ideal) (layer (V c main_v0) (V c main_v2) (V c main_v1)) := by
  show (cfg1.win 3).cut (grid1.coords t) ((dat1 V c).after 3 t) = _
  rw [after1_3]
  unfold out1_3
  rw [View.canon_unit_zero zero_off]
  simp only [View.ld_unit_zero (S := S256x4096) zero_off, View.ld_unit_zero (S := S1x256) zero_off]
  obtain ⟨e0, e1, e2, e3, e4, e5, e6, e7⟩ := idx_facts t
  have ht : t.val < 512 := (show t.val < grid1.N from t.isLt).trans_eq N_1
  funext j
  obtain ⟨p, q, rfl⟩ : ∃ (p q : Fin 256), j = ix2 p q := ⟨j 0, j 1, eq_ix2 j⟩
  have hp : p.val < 256 := p.isLt
  have hq : q.val < 256 := q.isLt
  refine (tile_apply (iblk1 V c 0 t) (iblk1 V c 1 t) (iblk1 V c 2 t) p q).trans ?_
  have r0 : (fun k : Fin 4096 => iblk1 V c 0 t (ix2 p k))
      = fun k => V c main_v0 (ix2 (⟨win1_3.index t (0 : Fin 2) * 256 + p.val, by omega⟩ : Fin 8192) k) :=
    funext fun k => by
      have hk : k.val < 4096 := k.isLt
      show V c main_v0 (((cfg1.win 0).blk t).view.emb (ix2 p k)) = V c main_v0 _
      refine congrArg _ (funext fun a => Fin.ext ?_)
      match a with
      | ⟨0, _⟩ => show win1_0.index t (0 : Fin 2) * 256 + 1 * p.val = win1_3.index t (0 : Fin 2) * 256 + p.val; omega
      | ⟨1, _⟩ => show win1_0.index t (1 : Fin 2) * 4096 + 1 * k.val = k.val; omega
  have r1 : (fun k : Fin 4096 => iblk1 V c 1 t (ix2 q k))
      = fun k => V c main_v2 (ix2 (⟨win1_3.index t (1 : Fin 2) * 256 + q.val, by omega⟩ : Fin 4096) k) :=
    funext fun k => by
      have hk : k.val < 4096 := k.isLt
      show V c main_v2 (((cfg1.win 1).blk t).view.emb (ix2 q k)) = V c main_v2 _
      refine congrArg _ (funext fun a => Fin.ext ?_)
      match a with
      | ⟨0, _⟩ => show win1_1.index t (0 : Fin 2) * 256 + 1 * q.val = win1_3.index t (1 : Fin 2) * 256 + q.val; omega
      | ⟨1, _⟩ => show win1_1.index t (1 : Fin 2) * 4096 + 1 * k.val = k.val; omega
  have r2 : iblk1 V c 2 t (ix2 (0 : Fin 1) q)
      = V c main_v1 (ix2 (0 : Fin 1) (⟨win1_3.index t (1 : Fin 2) * 256 + q.val, by omega⟩ : Fin 4096)) := by
    show V c main_v1 (((cfg1.win 2).blk t).view.emb (ix2 (0 : Fin 1) q)) = V c main_v1 _
    refine congrArg _ (funext fun a => Fin.ext ?_)
    match a with
    | ⟨0, _⟩ => show win1_2.index t (0 : Fin 2) * 1 + 1 * 0 = 0; omega
    | ⟨1, _⟩ => show win1_2.index t (1 : Fin 2) * 256 + 1 * q.val = win1_3.index t (1 : Fin 2) * 256 + q.val; omega
  have r3 : ((cfg1.win 3).blk t).view.emb (ix2 p q)
      = ix2 (⟨win1_3.index t (0 : Fin 2) * 256 + p.val, by omega⟩ : Fin 8192)
          (⟨win1_3.index t (1 : Fin 2) * 256 + q.val, by omega⟩ : Fin 4096) := by
    refine funext fun a => Fin.ext ?_
    match a with
    | ⟨0, _⟩ => show win1_3.index t (0 : Fin 2) * 256 + 1 * p.val = win1_3.index t (0 : Fin 2) * 256 + p.val; omega
    | ⟨1, _⟩ => show win1_3.index t (1 : Fin 2) * 256 + 1 * q.val = win1_3.index t (1 : Fin 2) * 256 + q.val; omega
  rw [r0, r1, r2]
  show _ = layer (V c main_v0) (V c main_v2) (V c main_v1) (((cfg1.win 3).blk t).view.emb (ix2 p q))
  rw [r3, layer_apply]

/-- An index of the array is in point `t`'s tile iff each coordinate is in the tile's range on its axis. -/
theorem mem_blk (t : Fin cfg1.N) (i : S8192x4096.Idx) :
    i ∈ ((cfg1.win 3).blk t).view.set ↔ ∀ a : Fin 2, win1_3.index t a * S256x256.size a ≤ (i a).val ∧ (i a).val < win1_3.index t a * S256x256.size a + S256x256.size a := by
  show i ∈ ((View.whole main_v3).slice (win1_3.rect t)).set ↔ _
  rw [View.set_slice_whole, Rect.mem_set_unit]
  exact Iff.rfl

/-- The 512 tiles cover the array: entry (r, n) lies in the tile of point (r / 256)·16 + n / 256. -/
theorem cover (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  have hN : (i 0).val / 256 * 16 + (i 1).val / 256 < cfg1.N := by
    show _ < grid1.N
    rw [N_1]
    omega
  obtain ⟨e0, e1, e2, e3, e4, e5, e6, e7⟩ := idx_facts ⟨(i 0).val / 256 * 16 + (i 1).val / 256, hN⟩
  have q0 : win1_3.index ⟨(i 0).val / 256 * 16 + (i 1).val / 256, hN⟩ (0 : Fin 2) = (i 0).val / 256 := by
    rw [e6]; show ((i 0).val / 256 * 16 + (i 1).val / 256) / 16 = (i 0).val / 256; omega
  have q1 : win1_3.index ⟨(i 0).val / 256 * 16 + (i 1).val / 256, hN⟩ (1 : Fin 2) = (i 1).val / 256 := by
    rw [e7]; show ((i 0).val / 256 * 16 + (i 1).val / 256) % 16 = (i 1).val / 256; omega
  refine ⟨⟨(i 0).val / 256 * 16 + (i 1).val / 256, hN⟩, flush1_3 _, ?_⟩
  rw [mem_blk]
  intro a
  match a with
  | ⟨0, _⟩ =>
    show win1_3.index ⟨(i 0).val / 256 * 16 + (i 1).val / 256, hN⟩ (0 : Fin 2) * 256 ≤ (i 0).val ∧ (i 0).val < win1_3.index ⟨(i 0).val / 256 * 16 + (i 1).val / 256, hN⟩ (0 : Fin 2) * 256 + 256
    rw [q0]; omega
  | ⟨1, _⟩ =>
    show win1_3.index ⟨(i 0).val / 256 * 16 + (i 1).val / 256, hN⟩ (1 : Fin 2) * 256 ≤ (i 1).val ∧ (i 1).val < win1_3.index ⟨(i 0).val / 256 * 16 + (i 1).val / 256, hN⟩ (1 : Fin 2) * 256 + 256
    rw [q1]; omega

/-- The region's output array after its run: `layer` of the arrays it finds. -/
theorem final (c : Dev nD) :
    (dat1 (F := Ideal) V c).arrAt 3 cfg1.N = layer (V c main_v0) (V c main_v2) (V c main_v1) :=
  (dat1 V c).arrAt_eq_of_cover 3 (layer (V c main_v0) (V c main_v2) (V c main_v1)) (fun t _ => flushed_eq V c t) cover

end Cert.KernelIdeal.QuantMatmul

end
-- ==== Proof.SpecLayout.lean ====
/-
  The layer on reshaped arrays is `out`: tokens [4, 2048, 4096] flattened to [8192, 4096] (row b·2048+s is token
  (b, s)), the bias [4096] as a row [1, 4096], and the [8192, 4096] result folded back to [4, 2048, 4096].
-/
import proofs.«105468_j41781441856135_2_alg».proof.Proof.Spec
import Idealize.ShloMosaic.Lib.Pipeline.Value
import Idealize.ShloMosaic.Lib.ValueIdx

noncomputable section

namespace Cert.QuantLinear

open Idealize.ShloMosaic Idealize.ShloMosaic.ValueIdx

theorem layer_reshaped (x0 : (⟨3, ![4, 2048, 4096]⟩ : Shape).Idx → EReal) (W : (⟨2, ![4096, 4096]⟩ : Shape).Idx → BitVec 32)
    (S : (⟨2, ![4096, 64]⟩ : Shape).Idx → BitVec 32) (b : (⟨1, ![4096]⟩ : Shape).Idx → EReal)
    (h1 : (⟨3, ![4, 2048, 4096]⟩ : Shape).ShapeCasts ⟨2, ![8192, 4096]⟩)
    (h2 : (⟨1, ![4096]⟩ : Shape).ShapeCasts ⟨2, ![1, 4096]⟩)
    (h3 : (⟨2, ![8192, 4096]⟩ : Shape).ShapeCasts ⟨3, ![4, 2048, 4096]⟩) :
    shapeCast ⟨3, ![4, 2048, 4096]⟩ (layer (shapeCast ⟨2, ![8192, 4096]⟩ x0 h1) (weights W S) (shapeCast ⟨2, ![1, 4096]⟩ b h2)) h3
      = out x0 W S b := by
  funext j
  obtain ⟨p, s, n, rfl⟩ : ∃ (p : Fin 4) (s : Fin 2048) (n : Fin 4096), j = ix3 p s n := ⟨j 0, j 1, j 2, eq_ix3 j⟩
  have hp : p.val < 4 := p.isLt
  have hs : s.val < 2048 := s.isLt
  have hn : n.val < 4096 := n.isLt
  refine (shapeCast_apply _ h3 (ix3 p s n) (ix2 (⟨p.val * 2048 + s.val, by omega⟩ : Fin 8192) n)
    (by rw [Shape.rowMajor_val_two, Shape.rowMajor_val_three]
        show (p.val * 2048 + s.val) * 4096 + n.val = (p.val * 2048 + s.val) * 4096 + n.val
        rfl)).trans ?_
  rw [layer_apply, out_apply]
  have hrow : (fun k : Fin 4096 => shapeCast ⟨2, ![8192, 4096]⟩ x0 h1 (ix2 (⟨p.val * 2048 + s.val, by omega⟩ : Fin 8192) k))
      = fun k => x0 (ix3 p s k) :=
    funext fun k => shapeCast_apply _ h1 _ (ix3 p s k)
      (by rw [Shape.rowMajor_val_three, Shape.rowMajor_val_two]
          show (p.val * 2048 + s.val) * 4096 + k.val = (p.val * 2048 + s.val) * 4096 + k.val
          rfl)
  have hb : shapeCast ⟨2, ![1, 4096]⟩ b h2 (ix2 (0 : Fin 1) n) = b (ix1 n) :=
    shapeCast_apply _ h2 _ (ix1 n)
      (by rw [Shape.rowMajor_val_one, Shape.rowMajor_val_two]
          show n.val = 0 * 4096 + n.val
          omega)
  rw [hrow, hb]
  rfl

end Cert.QuantLinear

end
-- ==== Proof.KResult.lean ====
/-
  The idealized kernel's result array. Along the program: the tokens are reshaped to [8192, 4096] and the bias to
  [1, 4096]; the first region leaves the dequantized weight matrix of the integer weights and the block scales; the
  second region leaves `layer` of the reshaped tokens, that weight matrix and the bias row; the last operation
  reshapes it to [4, 2048, 4096]. So the result is `out` of the four arguments.
-/
import proofs.«105468_j41781441856135_2_alg».proof.Proof.KRun
import proofs.«105468_j41781441856135_2_alg».proof.Proof.Region0
import proofs.«105468_j41781441856135_2_alg».proof.Proof.Region1
import proofs.«105468_j41781441856135_2_alg».proof.Proof.SpecLayout
import Idealize.ShloMosaic.Lib.StableHlo.Run

set_option maxRecDepth 16384

noncomputable section

namespace Cert.KernelIdeal.Result

open Cert.KernelIdeal Cert.KernelIdeal.Gen Cert.QuantLinear
open Idealize.ShloMosaic Idealize.ShloMosaic.TcCoe Idealize.ShloMosaic.ValueIdx Idealize.SL.Sem Idealize.ShloMosaic.StableHlo

/-! ## The host operations, read from ANY contents -/

section Host
variable (W : Valuation τ sig (Elt Ideal))

theorem tokens_reshaped : after (hostOps0 (F := Ideal)) W (Proc.devRef .tc main_v0)
    = shapeCast S8192x4096 (W (Proc.devRef .tc main_arg0)) shapeCasts_S4x2048x4096_S8192x4096 := by
  after_results; rfl
theorem bias_reshaped : after (hostOps0 (F := Ideal)) W (Proc.devRef .tc main_v1)
    = shapeCast S1x4096 (W (Proc.devRef .tc main_arg3)) shapeCasts_S4096_S1x4096 := by
  after_results; rfl
theorem weights_kept : after (hostOps0 (F := Ideal)) W (Proc.devRef .tc main_arg1) = W (Proc.devRef .tc main_arg1) := by
  after_results
theorem scales_kept : after (hostOps0 (F := Ideal)) W (Proc.devRef .tc main_arg2) = W (Proc.devRef .tc main_arg2) := by
  after_results
theorem result_reshaped : after (hostOps2 (F := Ideal)) W (Proc.devRef .tc main_v4)
    = shapeCast S4x2048x4096 (W (Proc.devRef .tc main_v3)) shapeCasts_S8192x4096_S4x2048x4096 := by
  after_results; rfl
end Host

variable (m : (ℓ : Loc nD τ sig) → Buf (Elt Ideal) ℓ) (ρ : Dev nD → PrngReg)

/-- The second region finds the reshaped tokens … -/
theorem V2_tokens (c : Dev nD) : V2 m ρ c main_v0
    = shapeCast S8192x4096 (m ((c : Thread nD τ).loc main_arg0)) shapeCasts_S4x2048x4096_S8192x4096 :=
  (W2_of_ne m ρ c main_v0 (by decide)).trans (tokens_reshaped (W0 m ρ c))
/-- … the reshaped bias … -/
theorem V2_bias (c : Dev nD) : V2 m ρ c main_v1
    = shapeCast S1x4096 (m ((c : Thread nD τ).loc main_arg3)) shapeCasts_S4096_S1x4096 :=
  (W2_of_ne m ρ c main_v1 (by decide)).trans (bias_reshaped (W0 m ρ c))
/-- … and the dequantized weight matrix the first region left. -/
theorem V2_weights (c : Dev nD) : V2 m ρ c main_v2
    = weights (m ((c : Thread nD τ).loc main_arg1)) (m ((c : Thread nD τ).loc main_arg2)) := by
  refine (W2_arr m ρ c 2).trans ?_
  refine (Dequant.final (V1 m ρ) c).trans ?_
  exact congrArg₂ weights (weights_kept (W0 m ρ c)) (scales_kept (W0 m ρ c))

/-- The result array at the end of the run is `out` of the four arguments. -/
theorem result_eq (c : Dev nD) : W4 m ρ c (Proc.devRef .tc main_v4)
    = out (m ((c : Thread nD τ).loc main_arg0)) (m ((c : Thread nD τ).loc main_arg1))
        (m ((c : Thread nD τ).loc main_arg2)) (m ((c : Thread nD τ).loc main_arg3)) := by
  refine (result_reshaped (W3 m ρ c)).trans ?_
  have h3 : W3 m ρ c (Proc.devRef .tc main_v3)
      = layer (V2 m ρ c main_v0) (V2 m ρ c main_v2) (V2 m ρ c main_v1) :=
    (W3_arr m ρ c 3).trans (QuantMatmul.final (V2 m ρ) c)
  rw [h3, V2_tokens, V2_bias, V2_weights]
  exact layer_reshaped _ _ _ _ _ _ _

/-- The idealized kernel's run: the result at `out` of the arguments, the arguments unchanged. -/
theorem run : θ_run defs (onTc (τ := τ) (main (F := Ideal))) ⟨m, fun _ => 0, ρ⟩ (fun r => ∀ c : Dev nD,
      r.2.mem ((c.tc : Thread nD τ).loc main_v4)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c), (h c).2⟩) (RunV.run m ρ)

end Cert.KernelIdeal.Result

end
-- ==== Proof.RefFold.lean ====
/-
  The reference program is a line of 40 host operations, and the contents its result buffer ends with are the fold
  of the operations' results over the launch contents. A fold over a concatenation is the fold of the second list
  over the fold of the first (`after_append`), so the line is read in five stretches, each from arbitrary contents
  `W`: what the stretch writes, as a function of what it finds in the buffers it reads, and that it leaves alone the
  buffers later stretches read. The operations of the three functions jax outlined (the two clips and the rounding)
  address their buffers through typed references, whose transport of contents is the identity (`toBuf_…`,
  `ofBuf_…`). Chained, the five readings give the result buffer at the last stage of the reference read one
  operation at a time (`after_result`).
-/
import proofs.«105468_j41781441856135_2_alg».proof.Proof.RefRead

noncomputable section

namespace Cert.ReferenceIdeal.RefFold

open Cert.ReferenceIdeal Cert.ReferenceIdeal.Gen Idealize.ShloMosaic Idealize.ShloMosaic.TcCoe Idealize.SL.Sem Idealize.ShloMosaic.StableHlo

variable {F : FTy → Type} [FloatOps F]

theorem after_append (A B : List (HloOp τ sig (Elt F))) (V : Valuation τ sig (Elt F)) :
    after (A ++ B) V = after B (after A V) := by
  induction A generalizing V with
  | nil => rfl
  | cons a A ih => exact ih _

/-- Operations 1–16: the dequantized weights, the reshaped tokens, the tokens' largest magnitudes, the floor ε. -/
abbrev segA : List (HloOp τ sig (Elt F)) :=
  [ unary main_arg2 main_v0 (sitofp .f32 : (⟨S4096x64, .i32⟩ : BufTy).Contents (Elt F) → (⟨S4096x64, .f32⟩ : BufTy).Contents (Elt F)),
    nullary main_cst (constant S_ .f32 0x4B800000#32),
    unary main_cst main_v1 (broadcastInDim S4096x64 ![] bcast_S_S4096x64 : (⟨S_, .f32⟩ : BufTy).Contents (Elt F) → (⟨S4096x64, .f32⟩ : BufTy).Contents (Elt F)),
    binary main_v0 main_v1 main_v2 (Host.divf : (⟨S4096x64, .f32⟩ : BufTy).Contents (Elt F) → (⟨S4096x64, .f32⟩ : BufTy).Contents (Elt F) → (⟨S4096x64, .f32⟩ : BufTy).Contents (Elt F)),
    unary main_arg1 main_v3 (sitofp .f32 : (⟨S4096x4096, .i32⟩ : BufTy).Contents (Elt F) → (⟨S4096x4096, .f32⟩ : BufTy).Contents (Elt F)),
    reshape main_v3 main_v4 rfl shapeCasts_S4096x4096_S4096x64x64,
    unary main_v2 main_v5 (broadcastInDim S4096x64x1 ![0, 1] bcast_S4096x64_S4096x64x1_0_1 : (⟨S4096x64, .f32⟩ : BufTy).Contents (Elt F) → (⟨S4096x64x1, .f32⟩ : BufTy).Contents (Elt F)),
    unary main_v5 main_v6 (broadcastInDim S4096x64x64 ![0, 1, 2] bcast_S4096x64x1_S4096x64x64_0_1_2 : (⟨S4096x64x1, .f32⟩ : BufTy).Contents (Elt F) → (⟨S4096x64x64, .f32⟩ : BufTy).Contents (Elt F)),
    binary main_v4 main_v6 main_v7 (mulf : (⟨S4096x64x64, .f32⟩ : BufTy).Contents (Elt F) → (⟨S4096x64x64, .f32⟩ : BufTy).Contents (Elt F) → (⟨S4096x64x64, .f32⟩ : BufTy).Contents (Elt F)),
    reshape main_v7 main_v8 rfl shapeCasts_S4096x64x64_S4096x4096,
    reshape main_arg0 main_v9 rfl shapeCasts_S4x2048x4096_S8192x4096,
    unary main_v9 main_v10 (Host.absf : (⟨S8192x4096, .f32⟩ : BufTy).Contents (Elt F) → (⟨S8192x4096, .f32⟩ : BufTy).Contents (Elt F)),
    nullary main_cst_0 (constant S_ .f32 0xFF800000#32),
    binary main_v10 main_cst_0 main_v11 ((fun x v => Host.reduce FloatOps.maximumf x v reducesTo_S8192x4096_S8192_d1 h_S_) : (⟨S8192x4096, .f32⟩ : BufTy).Contents (Elt F) → (⟨S_, .f32⟩ : BufTy).Contents (Elt F) → (⟨S8192, .f32⟩ : BufTy).Contents (Elt F)),
    unary main_v11 main_v12 (broadcastInDim S8192x1 ![0] bcast_S8192_S8192x1_0 : (⟨S8192, .f32⟩ : BufTy).Contents (Elt F) → (⟨S8192x1, .f32⟩ : BufTy).Contents (Elt F)),
    nullary main_cst_1 (constant S_ .f32 0x322BCC77#32) ]
/-- Operations 17–19: the first clip (the floor applied to the largest magnitudes). -/
abbrev segB : List (HloOp τ sig (Elt F)) :=
  [ TRef.unary (TRef.of (T := ⟨S_, .f32⟩) main_cst_1) (TRef.of (T := ⟨S_, .f32⟩) main_call0_v0) id,
    TRef.unary (TRef.of (T := ⟨S_, .f32⟩) main_call0_v0) (TRef.of (T := ⟨S8192x1, .f32⟩) main_call0_v1) (broadcastInDim S8192x1 ![] bcast_S_S8192x1),
    TRef.binary (TRef.of (T := ⟨S8192x1, .f32⟩) main_call0_v1) (TRef.of (T := ⟨S8192x1, .f32⟩) main_v12) (TRef.of (T := ⟨S8192x1, .f32⟩) main_v13) maximumf ]
/-- Operations 20–24: the steps, and the tokens divided by their steps. -/
abbrev segC : List (HloOp τ sig (Elt F)) :=
  [ nullary main_cst_2 (constant S_ .f32 0x42FE0000#32),
    unary main_cst_2 main_v14 (broadcastInDim S8192x1 ![] bcast_S_S8192x1 : (⟨S_, .f32⟩ : BufTy).Contents (Elt F) → (⟨S8192x1, .f32⟩ : BufTy).Contents (Elt F)),
    binary main_v13 main_v14 main_v15 (Host.divf : (⟨S8192x1, .f32⟩ : BufTy).Contents (Elt F) → (⟨S8192x1, .f32⟩ : BufTy).Contents (Elt F) → (⟨S8192x1, .f32⟩ : BufTy).Contents (Elt F)),
    unary main_v15 main_v16 (broadcastInDim S8192x4096 ![0, 1] bcast_S8192x1_S8192x4096_0_1 : (⟨S8192x1, .f32⟩ : BufTy).Contents (Elt F) → (⟨S8192x4096, .f32⟩ : BufTy).Contents (Elt F)),
    binary main_v9 main_v16 main_v17 (Host.divf : (⟨S8192x4096, .f32⟩ : BufTy).Contents (Elt F) → (⟨S8192x4096, .f32⟩ : BufTy).Contents (Elt F) → (⟨S8192x4096, .f32⟩ : BufTy).Contents (Elt F)) ]
/-- Operations 25–33: the rounding and the second clip (to ±127). -/
abbrev segD : List (HloOp τ sig (Elt F)) :=
  [ TRef.unary (TRef.of (T := ⟨S8192x4096, .f32⟩) main_v17) (TRef.of (T := ⟨S8192x4096, .f32⟩) main_v18) Host.roundeven,
    nullary main_c (constantI S_ 32 4294967169#32),
    nullary main_c_3 (constantI S_ 32 127#32),
    TRef.unary (TRef.of (T := ⟨S_, .i32⟩) main_c) (TRef.of (T := ⟨S_, .f32⟩) main_call2_v0) (sitofp .f32),
    TRef.unary (TRef.of (T := ⟨S_, .f32⟩) main_call2_v0) (TRef.of (T := ⟨S8192x4096, .f32⟩) main_call2_v1) (broadcastInDim S8192x4096 ![] bcast_S_S8192x4096),
    TRef.binary (TRef.of (T := ⟨S8192x4096, .f32⟩) main_call2_v1) (TRef.of (T := ⟨S8192x4096, .f32⟩) main_v18) (TRef.of (T := ⟨S8192x4096, .f32⟩) main_call2_v2) maximumf,
    TRef.unary (TRef.of (T := ⟨S_, .i32⟩) main_c_3) (TRef.of (T := ⟨S_, .f32⟩) main_call2_v3) (sitofp .f32),
    TRef.unary (TRef.of (T := ⟨S_, .f32⟩) main_call2_v3) (TRef.of (T := ⟨S8192x4096, .f32⟩) main_call2_v4) (broadcastInDim S8192x4096 ![] bcast_S_S8192x4096),
    TRef.binary (TRef.of (T := ⟨S8192x4096, .f32⟩) main_call2_v4) (TRef.of (T := ⟨S8192x4096, .f32⟩) main_call2_v2) (TRef.of (T := ⟨S8192x4096, .f32⟩) main_v19) minimumf ]
/-- Operations 34–40: back to step units, the product with the weights, the bias. -/
abbrev segE : List (HloOp τ sig (Elt F)) :=
  [ unary main_v15 main_v20 (broadcastInDim S8192x4096 ![0, 1] bcast_S8192x1_S8192x4096_0_1 : (⟨S8192x1, .f32⟩ : BufTy).Contents (Elt F) → (⟨S8192x4096, .f32⟩ : BufTy).Contents (Elt F)),
    binary main_v19 main_v20 main_v21 (mulf : (⟨S8192x4096, .f32⟩ : BufTy).Contents (Elt F) → (⟨S8192x4096, .f32⟩ : BufTy).Contents (Elt F) → (⟨S8192x4096, .f32⟩ : BufTy).Contents (Elt F)),
    reshape main_v21 main_v22 rfl shapeCasts_S8192x4096_S4x2048x4096,
    binary main_v22 main_v8 main_v23 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg3 main_v24 (broadcastInDim S1x1x4096 ![2] bcast_S4096_S1x1x4096_2 : (⟨S4096, .f32⟩ : BufTy).Contents (Elt F) → (⟨S1x1x4096, .f32⟩ : BufTy).Contents (Elt F)),
    unary main_v24 main_v25 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v23 main_v25 main_v26 (addf : (⟨S4x2048x4096, .f32⟩ : BufTy).Contents (Elt F) → (⟨S4x2048x4096, .f32⟩ : BufTy).Contents (Elt F) → (⟨S4x2048x4096, .f32⟩ : BufTy).Contents (Elt F)) ]

theorem ops_split : (RunP.ops : List (HloOp τ sig (Elt F))) = segA ++ (segB ++ (segC ++ (segD ++ segE))) := rfl

/-! ## The typed references' transports are the identity -/

theorem toBuf_main_cst_1 (v : (⟨S_, .f32⟩ : BufTy).Contents (Elt F)) : (TRef.of (sig := sig) (T := ⟨S_, .f32⟩) main_cst_1).toBuf v = v := rfl
theorem ofBuf_main_cst_1 (v : (⟨S_, .f32⟩ : BufTy).Contents (Elt F)) : (TRef.of (sig := sig) (T := ⟨S_, .f32⟩) main_cst_1).ofBuf (Val := Elt F) v = v := rfl
theorem toBuf_main_call0_v0 (v : (⟨S_, .f32⟩ : BufTy).Contents (Elt F)) : (TRef.of (sig := sig) (T := ⟨S_, .f32⟩) main_call0_v0).toBuf v = v := rfl
theorem ofBuf_main_call0_v0 (v : (⟨S_, .f32⟩ : BufTy).Contents (Elt F)) : (TRef.of (sig := sig) (T := ⟨S_, .f32⟩) main_call0_v0).ofBuf (Val := Elt F) v = v := rfl
theorem toBuf_main_call0_v1 (v : (⟨S8192x1, .f32⟩ : BufTy).Contents (Elt F)) : (TRef.of (sig := sig) (T := ⟨S8192x1, .f32⟩) main_call0_v1).toBuf v = v := rfl
theorem ofBuf_main_call0_v1 (v : (⟨S8192x1, .f32⟩ : BufTy).Contents (Elt F)) : (TRef.of (sig := sig) (T := ⟨S8192x1, .f32⟩) main_call0_v1).ofBuf (Val := Elt F) v = v := rfl
theorem toBuf_main_v12 (v : (⟨S8192x1, .f32⟩ : BufTy).Contents (Elt F)) : (TRef.of (sig := sig) (T := ⟨S8192x1, .f32⟩) main_v12).toBuf v = v := rfl
theorem ofBuf_main_v12 (v : (⟨S8192x1, .f32⟩ : BufTy).Contents (Elt F)) : (TRef.of (sig := sig) (T := ⟨S8192x1, .f32⟩) main_v12).ofBuf (Val := Elt F) v = v := rfl
theorem toBuf_main_v13 (v : (⟨S8192x1, .f32⟩ : BufTy).Contents (Elt F)) : (TRef.of (sig := sig) (T := ⟨S8192x1, .f32⟩) main_v13).toBuf v = v := rfl
theorem ofBuf_main_v13 (v : (⟨S8192x1, .f32⟩ : BufTy).Contents (Elt F)) : (TRef.of (sig := sig) (T := ⟨S8192x1, .f32⟩) main_v13).ofBuf (Val := Elt F) v = v := rfl
theorem toBuf_main_v17 (v : (⟨S8192x4096, .f32⟩ : BufTy).Contents (Elt F)) : (TRef.of (sig := sig) (T := ⟨S8192x4096, .f32⟩) main_v17).toBuf v = v := rfl
theorem ofBuf_main_v17 (v : (⟨S8192x4096, .f32⟩ : BufTy).Contents (Elt F)) : (TRef.of (sig := sig) (T := ⟨S8192x4096, .f32⟩) main_v17).ofBuf (Val := Elt F) v = v := rfl
theorem toBuf_main_v18 (v : (⟨S8192x4096, .f32⟩ : BufTy).Contents (Elt F)) : (TRef.of (sig := sig) (T := ⟨S8192x4096, .f32⟩) main_v18).toBuf v = v := rfl
theorem ofBuf_main_v18 (v : (⟨S8192x4096, .f32⟩ : BufTy).Contents (Elt F)) : (TRef.of (sig := sig) (T := ⟨S8192x4096, .f32⟩) main_v18).ofBuf (Val := Elt F) v = v := rfl
theorem toBuf_main_c (v : (⟨S_, .i32⟩ : BufTy).Contents (Elt F)) : (TRef.of (sig := sig) (T := ⟨S_, .i32⟩) main_c).toBuf v = v := rfl
theorem ofBuf_main_c (v : (⟨S_, .i32⟩ : BufTy).Contents (Elt F)) : (TRef.of (sig := sig) (T := ⟨S_, .i32⟩) main_c).ofBuf (Val := Elt F) v = v := rfl
theorem toBuf_main_c_3 (v : (⟨S_, .i32⟩ : BufTy).Contents (Elt F)) : (TRef.of (sig := sig) (T := ⟨S_, .i32⟩) main_c_3).toBuf v = v := rfl
theorem ofBuf_main_c_3 (v : (⟨S_, .i32⟩ : BufTy).Contents (Elt F)) : (TRef.of (sig := sig) (T := ⟨S_, .i32⟩) main_c_3).ofBuf (Val := Elt F) v = v := rfl
theorem toBuf_main_call2_v0 (v : (⟨S_, .f32⟩ : BufTy).Contents (Elt F)) : (TRef.of (sig := sig) (T := ⟨S_, .f32⟩) main_call2_v0).toBuf v = v := rfl
theorem ofBuf_main_call2_v0 (v : (⟨S_, .f32⟩ : BufTy).Contents (Elt F)) : (TRef.of (sig := sig) (T := ⟨S_, .f32⟩) main_call2_v0).ofBuf (Val := Elt F) v = v := rfl
theorem toBuf_main_call2_v1 (v : (⟨S8192x4096, .f32⟩ : BufTy).Contents (Elt F)) : (TRef.of (sig := sig) (T := ⟨S8192x4096, .f32⟩) main_call2_v1).toBuf v = v := rfl
theorem ofBuf_main_call2_v1 (v : (⟨S8192x4096, .f32⟩ : BufTy).Contents (Elt F)) : (TRef.of (sig := sig) (T := ⟨S8192x4096, .f32⟩) main_call2_v1).ofBuf (Val := Elt F) v = v := rfl
theorem toBuf_main_call2_v2 (v : (⟨S8192x4096, .f32⟩ : BufTy).Contents (Elt F)) : (TRef.of (sig := sig) (T := ⟨S8192x4096, .f32⟩) main_call2_v2).toBuf v = v := rfl
theorem ofBuf_main_call2_v2 (v : (⟨S8192x4096, .f32⟩ : BufTy).Contents (Elt F)) : (TRef.of (sig := sig) (T := ⟨S8192x4096, .f32⟩) main_call2_v2).ofBuf (Val := Elt F) v = v := rfl
theorem toBuf_main_call2_v3 (v : (⟨S_, .f32⟩ : BufTy).Contents (Elt F)) : (TRef.of (sig := sig) (T := ⟨S_, .f32⟩) main_call2_v3).toBuf v = v := rfl
theorem ofBuf_main_call2_v3 (v : (⟨S_, .f32⟩ : BufTy).Contents (Elt F)) : (TRef.of (sig := sig) (T := ⟨S_, .f32⟩) main_call2_v3).ofBuf (Val := Elt F) v = v := rfl
theorem toBuf_main_call2_v4 (v : (⟨S8192x4096, .f32⟩ : BufTy).Contents (Elt F)) : (TRef.of (sig := sig) (T := ⟨S8192x4096, .f32⟩) main_call2_v4).toBuf v = v := rfl
theorem ofBuf_main_call2_v4 (v : (⟨S8192x4096, .f32⟩ : BufTy).Contents (Elt F)) : (TRef.of (sig := sig) (T := ⟨S8192x4096, .f32⟩) main_call2_v4).ofBuf (Val := Elt F) v = v := rfl
theorem toBuf_main_v19 (v : (⟨S8192x4096, .f32⟩ : BufTy).Contents (Elt F)) : (TRef.of (sig := sig) (T := ⟨S8192x4096, .f32⟩) main_v19).toBuf v = v := rfl
theorem ofBuf_main_v19 (v : (⟨S8192x4096, .f32⟩ : BufTy).Contents (Elt F)) : (TRef.of (sig := sig) (T := ⟨S8192x4096, .f32⟩) main_v19).ofBuf (Val := Elt F) v = v := rfl

variable (W : Valuation τ sig (Elt F))

/-! ## Stretch A -/
theorem A_v8 : after (segA (F := F)) W (Proc.devRef .tc main_v8) = ReadP.val_main_v8 (F := F) (W (Proc.devRef .tc main_arg1)) (W (Proc.devRef .tc main_arg2)) := by
  after_results_simp; rfl
theorem A_v9 : after (segA (F := F)) W (Proc.devRef .tc main_v9) = ReadP.val_main_v9 (F := F) (W (Proc.devRef .tc main_arg0)) := by
  after_results_simp; rfl
theorem A_v12 : after (segA (F := F)) W (Proc.devRef .tc main_v12) = ReadP.val_main_v12 (F := F) (W (Proc.devRef .tc main_arg0)) := by
  after_results_simp; rfl
theorem A_cst_1 : after (segA (F := F)) W (Proc.devRef .tc main_cst_1) = ReadP.val_main_cst_1 (F := F) := by
  after_results_simp; rfl
theorem A_arg3 : after (segA (F := F)) W (Proc.devRef .tc main_arg3) = (W (Proc.devRef .tc main_arg3)) := by
  after_results_simp

/-! ## Stretch B -/
theorem B_v13 : after (segB (F := F)) W (Proc.devRef .tc main_v13)
    = maximumf (broadcastInDim S8192x1 ![] bcast_S_S8192x1 (id ((W (Proc.devRef .tc main_cst_1)) : (⟨S_, .f32⟩ : BufTy).Contents (Elt F)))) (W (Proc.devRef .tc main_v12)) := by
  after_results_simp
  simp only [toBuf_main_cst_1, ofBuf_main_cst_1, toBuf_main_call0_v0, ofBuf_main_call0_v0, toBuf_main_call0_v1, ofBuf_main_call0_v1, toBuf_main_v12, ofBuf_main_v12, toBuf_main_v13, ofBuf_main_v13, toBuf_main_v17, ofBuf_main_v17, toBuf_main_v18, ofBuf_main_v18, toBuf_main_c, ofBuf_main_c, toBuf_main_c_3, ofBuf_main_c_3, toBuf_main_call2_v0, ofBuf_main_call2_v0, toBuf_main_call2_v1, ofBuf_main_call2_v1, toBuf_main_call2_v2, ofBuf_main_call2_v2, toBuf_main_call2_v3, ofBuf_main_call2_v3, toBuf_main_call2_v4, ofBuf_main_call2_v4, toBuf_main_v19, ofBuf_main_v19]
theorem B_v9 : after (segB (F := F)) W (Proc.devRef .tc main_v9) = (W (Proc.devRef .tc main_v9)) := by after_results_simp
theorem B_v8 : after (segB (F := F)) W (Proc.devRef .tc main_v8) = (W (Proc.devRef .tc main_v8)) := by after_results_simp
theorem B_arg3 : after (segB (F := F)) W (Proc.devRef .tc main_arg3) = (W (Proc.devRef .tc main_arg3)) := by after_results_simp

/-! ## Stretch C -/
theorem C_v15 : after (segC (F := F)) W (Proc.devRef .tc main_v15) = (Host.divf (W (Proc.devRef .tc main_v13) : (⟨S8192x1, .f32⟩ : BufTy).Contents (Elt F)) (broadcastInDim S8192x1 ![] bcast_S_S8192x1 (constant S_ .f32 0x42FE0000#32))) := by
  after_results_simp
theorem C_v17 : after (segC (F := F)) W (Proc.devRef .tc main_v17)
    = Host.divf (W (Proc.devRef .tc main_v9) : (⟨S8192x4096, .f32⟩ : BufTy).Contents (Elt F)) (broadcastInDim S8192x4096 ![0, 1] bcast_S8192x1_S8192x4096_0_1 (Host.divf (W (Proc.devRef .tc main_v13) : (⟨S8192x1, .f32⟩ : BufTy).Contents (Elt F)) (broadcastInDim S8192x1 ![] bcast_S_S8192x1 (constant S_ .f32 0x42FE0000#32)))) := by
  after_results_simp
theorem C_v8 : after (segC (F := F)) W (Proc.devRef .tc main_v8) = (W (Proc.devRef .tc main_v8)) := by after_results_simp
theorem C_arg3 : after (segC (F := F)) W (Proc.devRef .tc main_arg3) = (W (Proc.devRef .tc main_arg3)) := by after_results_simp

/-! ## Stretch D -/
theorem D_v19 : after (segD (F := F)) W (Proc.devRef .tc main_v19)
    = minimumf (broadcastInDim S8192x4096 ![] bcast_S_S8192x4096 (sitofp .f32 (constantI S_ 32 127#32)))
        (maximumf (broadcastInDim S8192x4096 ![] bcast_S_S8192x4096 (sitofp .f32 (constantI S_ 32 4294967169#32)))
          (Host.roundeven (W (Proc.devRef .tc main_v17) : (⟨S8192x4096, .f32⟩ : BufTy).Contents (Elt F)))) := by
  after_results_simp
  simp only [toBuf_main_cst_1, ofBuf_main_cst_1, toBuf_main_call0_v0, ofBuf_main_call0_v0, toBuf_main_call0_v1, ofBuf_main_call0_v1, toBuf_main_v12, ofBuf_main_v12, toBuf_main_v13, ofBuf_main_v13, toBuf_main_v17, ofBuf_main_v17, toBuf_main_v18, ofBuf_main_v18, toBuf_main_c, ofBuf_main_c, toBuf_main_c_3, ofBuf_main_c_3, toBuf_main_call2_v0, ofBuf_main_call2_v0, toBuf_main_call2_v1, ofBuf_main_call2_v1, toBuf_main_call2_v2, ofBuf_main_call2_v2, toBuf_main_call2_v3, ofBuf_main_call2_v3, toBuf_main_call2_v4, ofBuf_main_call2_v4, toBuf_main_v19, ofBuf_main_v19]
theorem D_v15 : after (segD (F := F)) W (Proc.devRef .tc main_v15) = (W (Proc.devRef .tc main_v15)) := by after_results_simp
theorem D_v8 : after (segD (F := F)) W (Proc.devRef .tc main_v8) = (W (Proc.devRef .tc main_v8)) := by after_results_simp
theorem D_arg3 : after (segD (F := F)) W (Proc.devRef .tc main_arg3) = (W (Proc.devRef .tc main_arg3)) := by after_results_simp

/-! ## Stretch E -/
theorem E_v26 : after (segE (F := F)) W (Proc.devRef .tc main_v26)
    = addf (Host.dotGeneral dot_S4x2048x4096_S4096x4096_S4x2048x4096_2_1_01_0_n_n none
          (shapeCast S4x2048x4096 (mulf (W (Proc.devRef .tc main_v19) : (⟨S8192x4096, .f32⟩ : BufTy).Contents (Elt F))
            (broadcastInDim S8192x4096 ![0, 1] bcast_S8192x1_S8192x4096_0_1 (W (Proc.devRef .tc main_v15) : (⟨S8192x1, .f32⟩ : BufTy).Contents (Elt F)))) shapeCasts_S8192x4096_S4x2048x4096)
          (W (Proc.devRef .tc main_v8) : (⟨S4096x4096, .f32⟩ : BufTy).Contents (Elt F)))
        (broadcastInDim S4x2048x4096 ![0, 1, 2] bcast_S1x1x4096_S4x2048x4096_0_1_2
          (broadcastInDim S1x1x4096 ![2] bcast_S4096_S1x1x4096_2 (W (Proc.devRef .tc main_arg3) : (⟨S4096, .f32⟩ : BufTy).Contents (Elt F)))) := by
  after_results_simp; rfl

/-! ## The whole line -/

/-- The result buffer after the reference's 40 operations, from ANY contents: the last stage of the reference read
    one operation at a time, applied to the four argument arrays. -/
theorem after_result (V : Valuation τ sig (Elt F)) :
    after (RunP.ops (F := F)) V (Proc.devRef .tc main_v26)
      = ReadP.val_main_v26 (F := F) (V (Proc.devRef .tc main_arg0)) (V (Proc.devRef .tc main_arg1))
          (V (Proc.devRef .tc main_arg2)) (V (Proc.devRef .tc main_arg3)) := by
  rw [ops_split, after_append, after_append, after_append, after_append]
  rw [E_v26, D_v19, D_v15, D_v8, D_arg3, C_v17, C_v15, C_v8, C_arg3, B_v13, B_v9, B_v8, B_arg3, A_v8, A_v9, A_v12, A_cst_1, A_arg3]
  rfl

end Cert.ReferenceIdeal.RefFold

end
-- ==== Proof.Consts.lean ====
/-
  The float and integer constants the two programs spell, as the extended reals they denote: the scale's
  fixed-point factor 2⁻²⁴ (the kernel multiplies by it, the reference divides by 2²⁴), and the clamp bounds ±127
  (float literals in the kernel, converted integer literals in the reference).
-/
import Idealize.ShloMosaic.PureOps.Ideal

noncomputable section

namespace Cert.QuantLinear.Consts

open Idealize.ShloMosaic

/-- The word `0x33800000` denotes 2⁻²⁴ = 1/16777216. -/
theorem ofBits_inv_2_24 : Ideal.ofBits .f32 0x33800000#32 = ((1 / 16777216 : ℝ) : EReal) := by
  simp [Ideal.ofBits, Ideal.ieee, -EReal.coe_mul]; norm_num

/-- The word `0x4B800000` denotes 2²⁴ = 16777216. -/
theorem ofBits_2_24 : Ideal.ofBits .f32 0x4B800000#32 = ((16777216 : ℝ) : EReal) := by
  simp [Ideal.ofBits, Ideal.ieee, -EReal.coe_mul]; norm_num

/-- The word `0x42FE0000` denotes 127. -/
theorem ofBits_127 : Ideal.ofBits .f32 0x42FE0000#32 = ((127 : ℝ) : EReal) := by
  simp [Ideal.ofBits, Ideal.ieee, -EReal.coe_mul]; norm_num

/-- The word `0xC2FE0000` denotes −127. -/
theorem ofBits_neg_127 : Ideal.ofBits .f32 0xC2FE0000#32 = ((-127 : ℝ) : EReal) := by
  simp [Ideal.ofBits, Ideal.ieee, -EReal.coe_mul]; norm_num

/-- The 32-bit integer 127, converted, is the float 127 … -/
theorem sitofp_127 : FloatOps.sitofp (F := Ideal) .f32 (127#32 : BitVec 32) = Ideal.ofBits .f32 0x42FE0000#32 := by
  rw [ofBits_127]
  show (((127#32 : BitVec 32).toInt : ℝ) : EReal) = _
  norm_num [BitVec.toInt]

/-- … and the 32-bit pattern of −127, converted, is the float −127. -/
theorem sitofp_neg_127 : FloatOps.sitofp (F := Ideal) .f32 (4294967169#32 : BitVec 32) = Ideal.ofBits .f32 0xC2FE0000#32 := by
  rw [ofBits_neg_127]
  show (((4294967169#32 : BitVec 32).toInt : ℝ) : EReal) = _
  norm_num [BitVec.toInt]

/-- Multiplying by 2⁻²⁴ is dividing by 2²⁴, on every extended real. -/
theorem mul_inv_eq_div (x : EReal) :
    x * Ideal.ofBits .f32 0x33800000#32 = Ideal.div x (Ideal.ofBits .f32 0x4B800000#32) := by
  rw [ofBits_inv_2_24, ofBits_2_24, Ideal.div_coe (by norm_num : (16777216 : ℝ) ≠ 0)]

end Cert.QuantLinear.Consts

end
-- ==== Proof.RefSpec.lean ====
/-
  The reference computes `out`. Read one operation at a time at an index, the reference's last stage at (b, s, n)
  is a sum over the 4096 columns of (token b·2048+s fake-quantized, at column k) × (weight at (n, k)), plus the
  bias at n. Row b·2048+s of the reshaped tokens is row (b, s) of the batch; the reference's weight at (n, k) is the
  integer weight times (the block scale divided by 2²⁴), which is the product with 2⁻²⁴; its clamp bounds are the
  integers ±127 converted, which are the floats ±127; its row maximum is the same fold of max from −∞.
-/
import proofs.«105468_j41781441856135_2_alg».proof.Proof.RefRead
import proofs.«105468_j41781441856135_2_alg».proof.Proof.Spec
import proofs.«105468_j41781441856135_2_alg».proof.Proof.Consts
import Idealize.ShloMosaic.Lib.ValueIdx
import Idealize.ShloMosaic.PureOps.Ideal.Laws

noncomputable section

namespace Cert.ReferenceIdeal.RefSpec

open Cert.ReferenceIdeal Cert.ReferenceIdeal.Gen Cert.ReferenceIdeal.ReadP Cert.QuantLinear
open Idealize.ShloMosaic Idealize.ShloMosaic.TcCoe Idealize.ShloMosaic.ValueIdx

/-- The host's maximum over the columns of ANY [8192, 4096] array, from −∞, at row r: the fold of max over the row. -/
theorem hostRowMax (y : FVec Ideal S8192x4096 .f32) (r : Fin 8192) :
    Host.reduce FloatOps.maximumf y (constant S_ .f32 0xFF800000#32) reducesTo_S8192x4096_S8192_d1 h_S_ (ix1 r)
      = (Finset.univ : Finset (Fin 4096)).fold max (Ideal.ofBits .f32 0xFF800000#32) (fun k => y (ix2 r k)) := by
  have h : S8192x4096.Reduces [1] S8192 := by decide
  rw [Host.reduce_eq_fold_single FloatOps.maximumf y _ reducesTo_S8192x4096_S8192_d1 h h_S_]
  have hf : (y ∘ h.lift (ix1 r)) = fun k : Fin 4096 => y (ix2 r k) :=
    funext fun k => congrArg y (funext fun a => Fin.ext (by
      match a with
      | ⟨0, _⟩ => rfl
      | ⟨1, _⟩ => rfl))
  exact congrArg (fun f => Finset.fold max (Ideal.ofBits .f32 0xFF800000#32) f (Finset.univ : Finset (Fin 4096))) hf

variable (x0 : (⟨S4x2048x4096, .f32⟩ : BufTy).Contents (Elt Ideal)) (x1 : (⟨S4096x4096, .i32⟩ : BufTy).Contents (Elt Ideal))
  (x2 : (⟨S4096x64, .i32⟩ : BufTy).Contents (Elt Ideal)) (x3 : (⟨S4096, .f32⟩ : BufTy).Contents (Elt Ideal))

/-- Row b·2048+s of the reshaped tokens is row (b, s) of the batch. -/
theorem tokens_apply (b : Fin 4) (s : Fin 2048) (k : Fin 4096) :
    val_main_v9 (F := Ideal) x0 (ix2 (⟨b.val * 2048 + s.val, by have := b.isLt; have := s.isLt; omega⟩ : Fin 8192) k) = x0 (ix3 b s k) := by
  have hb : b.val < 4 := b.isLt
  have hs : s.val < 2048 := s.isLt
  have hk : k.val < 4096 := k.isLt
  rw [val_main_v9_apply]
  refine congrArg x0 (funext fun a => Fin.ext ?_)
  match a with
  | ⟨0, _⟩ => show ((b.val * 2048 + s.val) * 4096 + k.val) / 8388608 = b.val; omega
  | ⟨1, _⟩ => show ((b.val * 2048 + s.val) * 4096 + k.val) / 4096 % 2048 = s.val; omega
  | ⟨2, _⟩ => show ((b.val * 2048 + s.val) * 4096 + k.val) % 4096 = k.val; omega

/-- The reference's largest magnitude of token r. -/
theorem amax_apply (r : Fin 8192) :
    val_main_v11 (F := Ideal) x0 (ix1 r) = amax (fun k => val_main_v9 (F := Ideal) x0 (ix2 r k)) := by
  unfold val_main_v11 val_main_cst_0
  refine (hostRowMax (val_main_v10 (F := Ideal) x0) r).trans ?_
  unfold amax
  exact congrArg (fun f => Finset.fold max (Ideal.ofBits .f32 0xFF800000#32) f (Finset.univ : Finset (Fin 4096)))
    (funext fun k => val_main_v10_apply x0 (ix2 r k))

/-- The reference's step of token r. -/
theorem step_apply (r : Fin 8192) :
    val_main_v15 (F := Ideal) x0 (ix2 r (0 : Fin 1)) = step (fun k => val_main_v9 (F := Ideal) x0 (ix2 r k)) := by
  have e12 : idx_main_v12 (ix2 r (0 : Fin 1)) = ix1 r := funext fun a => Fin.ext (by
    match a with
    | ⟨0, _⟩ => rfl)
  rw [val_main_v15_apply, val_main_v13_apply, val_main_call0_v1_apply, val_main_call0_v0_apply, val_main_cst_1_apply,
    val_main_v12_apply, val_main_v14_apply, val_main_cst_2_apply, e12, amax_apply]
  rfl

/-- The reference's fake-quantized activation k of token r. -/
theorem fq_apply (r : Fin 8192) (k : Fin 4096) :
    val_main_v21 (F := Ideal) x0 (ix2 r k) = fq (fun k => val_main_v9 (F := Ideal) x0 (ix2 r k)) k := by
  have e16 : idx_main_v16 (ix2 r k) = ix2 r (0 : Fin 1) := funext fun a => Fin.ext (by
    match a with
    | ⟨0, _⟩ => rfl
    | ⟨1, _⟩ => rfl)
  have e20 : idx_main_v20 (ix2 r k) = ix2 r (0 : Fin 1) := funext fun a => Fin.ext (by
    match a with
    | ⟨0, _⟩ => rfl
    | ⟨1, _⟩ => rfl)
  rw [val_main_v21_apply, val_main_v19_apply, val_main_call2_v4_apply, val_main_call2_v3_apply, val_main_c_3_apply,
    val_main_call2_v2_apply, val_main_call2_v1_apply, val_main_call2_v0_apply, val_main_c_apply, val_main_v18_apply,
    val_main_v17_apply, val_main_v16_apply, val_main_v20_apply, e16, e20, step_apply,
    Consts.sitofp_127, Consts.sitofp_neg_127]
  rfl

/-- The reference's dequantized weight at (n, k). -/
theorem weight_apply (n k : Fin 4096) :
    val_main_v8 (F := Ideal) x1 x2 (ix2 n k) = deq (x1 (ix2 n k)) (x2 (ix2 n (blockOf k))) := by
  have hn : n.val < 4096 := n.isLt
  have hk : k.val < 4096 := k.isLt
  have e4 : idx_main_v4 (idx_main_v8 (ix2 n k)) = ix2 n k := funext fun a => Fin.ext (by
    match a with
    | ⟨0, _⟩ => show (((n.val * 4096 + k.val) / 4096 * 64 + (n.val * 4096 + k.val) / 64 % 64) * 64 + (n.val * 4096 + k.val) % 64) / 4096 = n.val; omega
    | ⟨1, _⟩ => show (((n.val * 4096 + k.val) / 4096 * 64 + (n.val * 4096 + k.val) / 64 % 64) * 64 + (n.val * 4096 + k.val) % 64) % 4096 = k.val; omega)
  have e5 : idx_main_v5 (idx_main_v6 (idx_main_v8 (ix2 n k))) = ix2 n (blockOf k) := funext fun a => Fin.ext (by
    match a with
    | ⟨0, _⟩ => show (n.val * 4096 + k.val) / 4096 = n.val; omega
    | ⟨1, _⟩ => show (n.val * 4096 + k.val) / 64 % 64 = k.val / 64; omega)
  rw [val_main_v8_apply, val_main_v7_apply, val_main_v4_apply, val_main_v3_apply, val_main_v6_apply, val_main_v5_apply,
    val_main_v2_apply, val_main_v0_apply, val_main_v1_apply, val_main_cst_apply, e4, e5]
  unfold deq
  exact congrArg (fun z : EReal => FloatOps.mulf (F := Ideal) (φ := .f32) (FloatOps.sitofp .f32 (x1 (ix2 n k))) z)
    (Consts.mul_inv_eq_div _).symm

/-- The reference's result is `out` of its four arguments. -/
theorem result_eq : val_main_v26 (F := Ideal) x0 x1 x2 x3 = out x0 x1 x2 x3 := by
  funext j
  obtain ⟨b, s, n, rfl⟩ : ∃ (b : Fin 4) (s : Fin 2048) (n : Fin 4096), j = ix3 b s n := ⟨j 0, j 1, j 2, eq_ix3 j⟩
  have hb : b.val < 4 := b.isLt
  have hs : s.val < 2048 := s.isLt
  have hn : n.val < 4096 := n.isLt
  have hrow : (fun k : Fin 4096 => val_main_v9 (F := Ideal) x0 (ix2 (⟨b.val * 2048 + s.val, by omega⟩ : Fin 8192) k))
      = fun k => x0 (ix3 b s k) := funext fun k => tokens_apply x0 b s k
  rw [val_main_v26_apply, val_main_v23_apply, val_main_v25_apply, val_main_v24_apply, out_apply]
  unfold entry
  refine congrArg₂ (fun a c : EReal => a + c) (Finset.sum_congr rfl fun k _ => ?_) ?_
  · have hk : k.val < 4096 := k.isLt
    have el : idx_main_v22 (lidx_main_v23 (ix3 b s n) k) = ix2 (⟨b.val * 2048 + s.val, by omega⟩ : Fin 8192) k :=
      funext fun a => Fin.ext (by
        match a with
        | ⟨0, _⟩ => show ((b.val * 2048 + s.val) * 4096 + k.val) / 4096 = b.val * 2048 + s.val; omega
        | ⟨1, _⟩ => show ((b.val * 2048 + s.val) * 4096 + k.val) % 4096 = k.val; omega)
    have er : ridx_main_v23 (ix3 b s n) k = ix2 n k := funext fun a => Fin.ext (by
      match a with
      | ⟨0, _⟩ => rfl
      | ⟨1, _⟩ => rfl)
    rw [val_main_v22_apply, el, er, fq_apply, weight_apply, hrow]
  · refine congrArg x3 (funext fun a => Fin.ext ?_)
    match a with
    | ⟨0, _⟩ => rfl

end Cert.ReferenceIdeal.RefSpec

end
-- ==== Proof.RefResult.lean ====
/-
  The idealized reference's run: every weakly fair execution ends with the result buffer at `out` of the four
  arguments and the arguments unchanged — the fold of its 40 operations over the launch contents, read one
  operation at a time, is `out`.
-/
import proofs.«105468_j41781441856135_2_alg».proof.Proof.RefFold
import proofs.«105468_j41781441856135_2_alg».proof.Proof.RefSpec

noncomputable section

namespace Cert.ReferenceIdeal.Result

open Cert.ReferenceIdeal Cert.ReferenceIdeal.Gen Cert.QuantLinear
open Idealize.ShloMosaic Idealize.ShloMosaic.TcCoe Idealize.SL.Sem Idealize.ShloMosaic.StableHlo

variable (m : (ℓ : Loc nD τ sig) → Buf (Elt Ideal) ℓ) (ρ : Dev nD → PrngReg)

/-- The fold of the reference's operations over the launch contents, at the result buffer, is `out` of the arguments. -/
theorem result_eq (c : Dev nD) :
    after (RunP.ops (F := Ideal)) (launchContents m c) (Proc.devRef .tc main_v26)
      = out (m ((c.tc : Thread nD τ).loc main_arg0)) (m ((c.tc : Thread nD τ).loc main_arg1))
          (m ((c.tc : Thread nD τ).loc main_arg2)) (m ((c.tc : Thread nD τ).loc main_arg3)) :=
  (RefFold.after_result (launchContents m c)).trans
    (RefSpec.result_eq (m ((c.tc : Thread nD τ).loc main_arg0)) (m ((c.tc : Thread nD τ).loc main_arg1))
      (m ((c.tc : Thread nD τ).loc main_arg2)) (m ((c.tc : Thread nD τ).loc main_arg3)))

theorem run : θ_run defs (onTc (τ := τ) (main (F := Ideal))) ⟨m, fun _ => 0, ρ⟩ (fun r => ∀ c : Dev nD,
      r.2.mem ((c.tc : Thread nD τ).loc main_v26)
        = out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m c), (h c).2⟩) (RunP.run (F := Ideal) m ρ)

end Cert.ReferenceIdeal.Result

end
-- ==== Proof.lean ====
/-
  The certificate of a block-quantized linear layer with fake-quantized activations. The kernel dequantizes the
  integer weights block by block (integer weight × integer scale × 2⁻²⁴) in one region and, in a second region,
  fake-quantizes each token to a symmetric 8-bit grid (step = max(ε, largest magnitude)/127; round to even; clamp to
  ±127), multiplies with the dequantized weights over the 4096 columns and adds the bias; the reference does the
  same on whole arrays with a division by 2²⁴ and converted integer clamp bounds. At the exact values both end at
  one function `out` of the four arguments (Proof/Spec.lean): the kernel's run is Proof/KResult.lean, the
  reference's Proof/RefResult.lean. No law used needs finite inputs. The three frames: the kernel's two from the
  generated frame modules, the reference's its run with the result dropped. Nothing was rewritten in the idealized
  kernel, so there is no preservation obligation.
-/
import proofs.«105468_j41781441856135_2_alg».proof.Defs
import proofs.«105468_j41781441856135_2_alg».proof.Proof.Gen.Kernel
import proofs.«105468_j41781441856135_2_alg».proof.Proof.Gen.Kernel.Frame
import proofs.«105468_j41781441856135_2_alg».proof.Proof.Gen.KernelIdeal
import proofs.«105468_j41781441856135_2_alg».proof.Proof.Gen.KernelIdeal.Frame
import proofs.«105468_j41781441856135_2_alg».proof.Proof.Gen.ReferenceIdeal
import proofs.«105468_j41781441856135_2_alg».proof.Proof.Gen.Pre_finite_inputs
import proofs.«105468_j41781441856135_2_alg».proof.Proof.KResult
import proofs.«105468_j41781441856135_2_alg».proof.Proof.RefResult
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_referenceIdeal : Cert.frame_ReferenceIdeal :=
  fun m ρ _ => (θ_run Cert.ReferenceIdeal.defs _ _).mono (fun _ h c => (h c).2) (Cert.ReferenceIdeal.RunP.run (F := Ideal) m ρ)

/-- Both idealized programs end at `out` of the arguments; from memories that agree on the arguments the two
    results are equal. -/
theorem algebraic : Cert.algebraic_KernelIdeal_ReferenceIdeal := by
  intro m ρ m' ρ' _ hagree
  refine ⟨fun c => Cert.QuantLinear.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Result.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
